-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : IVec S2x800000 32) (main_arg2 : FVec F S128x256 .f32) (main_arg3 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x256 : Shape := ⟨2, ![128, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S8000x128 : Shape := ⟨2, ![8000, 128]⟩

abbrev nBuf : Space → Nat
  | .hbm => 42
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .bf16⟩
  | .hbm, ⟨28, _⟩ => ⟨S128x128, .f32⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .f32⟩
  | .hbm, ⟨39, _⟩ => ⟨S128x128, .bf16⟩
  | .hbm, ⟨40, _⟩ => ⟨S800000x128, .f32⟩
  | .hbm, ⟨41, _⟩ => ⟨S800000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  slices_S128x256_S128x128_0_0 : S128x256.Slices ![0, 0] S128x128
  transposes_S128x128_S128x128_1_0 : S128x128.Transposes [1, 0] S128x128
  slices_S128x256_S128x128_0_128 : S128x256.Slices ![0, 128] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S800000x128.size a
  hwx0_6 : ∀ i : grid0.Coords, EltTy.bits .f32 = 32 ∨ (Rect.block (s := S800000x128) S8000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32_0) S8000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v32_1) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S128x128, .f32⟩
  | .hbm, ⟨27, _⟩ => ⟨S800000x128, .f32⟩
  | .hbm, ⟨28, _⟩ => ⟨S128x128, .f32⟩
  | .hbm, ⟨29, _⟩ => ⟨S800000x128, .f32⟩
  | .hbm, ⟨30, _⟩ => ⟨S800000x128, .f32⟩
  | .hbm, ⟨31, _⟩ => ⟨S128x128, .f32⟩
  | .hbm, ⟨32, _⟩ => ⟨S800000x128, .f32⟩
  | .hbm, ⟨33, _⟩ => ⟨S128x128, .f32⟩
  | .hbm, ⟨34, _⟩ => ⟨S800000x128, .f32⟩
  | .hbm, ⟨35, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S128x256_S128x128_0_0 : S128x256.Slices ![0, 0] S128x128
  slices_S128x256_S128x128_0_128 : S128x256.Slices ![0, 128] S128x128
  gather_S50000x128_S800000x1_S800000x128_1_0_n_n_0_1_1128_wf : GatherDims.WF S50000x128 S800000x1 S800000x128 [1] [0] [] [0] [] 1 ![1, 128]
  dot_S800000x128_S128x128_S800000x128_1_1_0_0_n_n_wf : DotDims.WF S800000x128 S128x128 S800000x128 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_1_0_0_n_n : DotDims S800000x128 S128x128 S800000x128 where
  lhsContracting := [1]
  rhsContracting := [1]
  lhsNonContracting := [0]
  rhsNonContracting := [0]
  lhsBatch := []
  rhsBatch := []
  wf := dot_S800000x128_S128x128_S800000x128_1_1_0_0_n_n_wf

class Facts : Prop extends Facts₀ where

variable [Facts]
-- ==== Proof.Payload.lean ====
/-
  The kernel body's arithmetic, read at an entry. At a grid point the body holds a block of 8000 edges: the two
  blocks `x0`, `x1` of gathered rows (8000 × 128) and two weight blocks `w0`, `w1` (128 × 128, channel by output
  channel). Each stored value is the sum of two matrix products into a zero accumulator, so over the extended reals its
  entry `(p, q)` is `Σ_k x0[p,k]·w0[k,q] + Σ_k x1[p,k]·w1[k,q]`: the product's contraction runs over the left
  operand's axis 1 and the right operand's axis 0, and the casts of a block to its own shape are the identity.
-/
import proofs.«107722_j26817775796922_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The left operand's row is the output's row. -/
theorem lhs_row (j : S8000x128.Idx) (u : dot_S8000x128_S128x128_S8000x128_1_0_0_1_n_n.contr.Idx) :
    (dot_S8000x128_S128x128_S8000x128_1_0_0_1_n_n.lhsIdx j u 0).val = (j 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl
/-- The left operand's column is the contraction position. -/
theorem lhs_col (j : S8000x128.Idx) (u : dot_S8000x128_S128x128_S8000x128_1_0_0_1_n_n.contr.Idx) :
    (dot_S8000x128_S128x128_S8000x128_1_0_0_1_n_n.lhsIdx j u 1).val = (u ⟨0, by decide⟩).val :=
  dot_S8000x128_S128x128_S8000x128_1_0_0_1_n_n.lhsIdx_val_of_single rfl j u
/-- The right operand's row is the contraction position. -/
theorem rhs_row (j : S8000x128.Idx) (u : dot_S8000x128_S128x128_S8000x128_1_0_0_1_n_n.contr.Idx) :
    (dot_S8000x128_S128x128_S8000x128_1_0_0_1_n_n.rhsIdx j u 0).val = (u ⟨0, by decide⟩).val :=
  dot_S8000x128_S128x128_S8000x128_1_0_0_1_n_n.rhsIdx_val_of_single rfl j u
/-- The right operand's column is the output's column. -/
theorem rhs_col (j : S8000x128.Idx) (u : dot_S8000x128_S128x128_S8000x128_1_0_0_1_n_n.contr.Idx) :
    (dot_S8000x128_S128x128_S8000x128_1_0_0_1_n_n.rhsIdx j u 1).val = (j 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- One matrix product of the body into the zero accumulator, at entry `(p, q)`: the sum over the 128 channels. -/
theorem matmul_at (x : FVec Ideal S8000x128 .bf16) (w : FVec Ideal S128x128 .bf16) (p : Fin 8000) (q : Fin 128) :
    matmul dot_S8000x128_S128x128_S8000x128_1_0_0_1_n_n none x w (constant S8000x128 .f32 0x00000000#32) (ix2 p q)
      = ∑ k : Fin 128, x (ix2 p k) * w (ix2 k q) := by
  refine (Ideal.matmul_constant_zero_apply dot_S8000x128_S128x128_S8000x128_1_0_0_1_n_n none x w (ix2 p q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q)
      ((contrEquiv1 dot_S8000x128_S128x128_S8000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S8000x128_S128x128_S8000x128_1_0_0_1_n_n.rhsIdx (ix2 p q)
      ((contrEquiv1 dot_S8000x128_S128x128_S8000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The value stored to the first output block, at entry `(p, q)`. -/
theorem pay3_at (x0 x1 : Vec Ideal S8000x128 .bf16) (w0 w1 : Vec Ideal S128x128 .bf16) (p : Fin 8000) (q : Fin 128) :
    k0_pay3 (F := Ideal) x0 x1 w0 w1 (ix2 p q)
      = (∑ k : Fin 128, x0 (ix2 p k) * w0 (ix2 k q)) + ∑ k : Fin 128, x1 (ix2 p k) * w1 (ix2 k q) := by
  unfold k0_pay3 k0_pay1 k0_pay2
  simp only [shapeCast_self]
  exact congrArg₂ (· + ·) (matmul_at x0 w0 p q) (matmul_at x1 w1 p q)

/-- The value stored to the second output block, at entry `(p, q)`. -/
theorem pay4_at (x0 x1 : Vec Ideal S8000x128 .bf16) (w0 w1 : Vec Ideal S128x128 .bf16) (p : Fin 8000) (q : Fin 128) :
    k0_pay4 (F := Ideal) x0 x1 w0 w1 (ix2 p q)
      = (∑ k : Fin 128, x0 (ix2 p k) * w0 (ix2 k q)) + ∑ k : Fin 128, x1 (ix2 p k) * w1 (ix2 k q) := by
  unfold k0_pay4 k0_pay1 k0_pay2
  simp only [shapeCast_self]
  exact congrArg₂ (· + ·) (matmul_at x0 w0 p q) (matmul_at x1 w1 p q)

end Cert.KernelIdeal.Body

end
-- ==== Proof.Spec.lean ====
/-
  The edge projection as one function of arrays over the extended reals.

  Every one of the 800000 edges carries two gathered feature rows of 128 channels, `a[e,·]` and `b[e,·]`
  (the features of its two end nodes). A weight matrix `w` has one row of 256 entries per output channel `n`:
  the first 128 entries meet the first feature row, the last 128 the second. The projection is

      out[e,n] = Σ_k a[e,k]·w[n,k]  +  Σ_k b[e,k]·w[n,128+k],

  the concatenated row `(a[e,·], b[e,·])` against row `n` of `w`, written as its two halves. Both sums are finite sums
  in the extended reals, taken over the same index set in the same order on both sides of the certificate, so no law
  of the extended reals beyond reading each operation at an index is needed.
-/
import Idealize.ShloMosaic.PureOps.Ideal
import Idealize.ShloMosaic.Lib.ValueIdx

noncomputable section

namespace Cert.EdgeProj

open Idealize.ShloMosaic Idealize.ShloMosaic.ValueIdx

/-- Column `k` of the first half of a weight row of 256 entries. -/
abbrev lo (k : Fin 128) : Fin 256 := ⟨k.val, by have := k.isLt; omega⟩

/-- Column `128 + k`: entry `k` of the second half of a weight row of 256 entries. -/
abbrev hi (k : Fin 128) : Fin 256 := ⟨128 + k.val, by have := k.isLt; omega⟩

/-- `out[e,n] = Σ_k a[e,k]·w[n,k] + Σ_k b[e,k]·w[n,128+k]`. -/
def proj (a b : (⟨2, ![800000, 128]⟩ : Shape).Idx → EReal) (w : (⟨2, ![128, 256]⟩ : Shape).Idx → EReal)
    (e : Fin 800000) (n : Fin 128) : EReal :=
  (∑ k : Fin 128, a (ix2 e k) * w (ix2 n (lo k))) + ∑ k : Fin 128, b (ix2 e k) * w (ix2 n (hi k))

/-- The projection as a whole array: entry `(e, n)` is `proj a b w e n`. -/
def projArr (a b : (⟨2, ![800000, 128]⟩ : Shape).Idx → EReal) (w : (⟨2, ![128, 256]⟩ : Shape).Idx → EReal) :
    (⟨2, ![800000, 128]⟩ : Shape).Idx → EReal :=
  fun i => proj a b w (i 0) (i 1)

theorem projArr_apply (a b : (⟨2, ![800000, 128]⟩ : Shape).Idx → EReal) (w : (⟨2, ![128, 256]⟩ : Shape).Idx → EReal)
    (e : Fin 800000) (n : Fin 128) : projArr a b w (ix2 e n) = proj a b w e n := rfl

end Cert.EdgeProj

end
-- ==== Proof.Entry.lean ====
/-
  What the kernel's region finds in the arrays its windows read, as functions of the program's arguments.

  Before the region the program takes the two rows of the edge index array (the edges' two end nodes), counts a
  negative node index from the end of the table of 50000 nodes, gathers one feature row per edge end from the node
  features, and rounds the gathered rows to the narrower float format, which over the extended reals changes nothing.
  It also cuts each weight matrix into its two halves of 128 columns, transposes each half and rounds it: entry
  `(k, n)` of a transposed half is entry `(n, k)`, respectively `(n, 128 + k)`, of the weight matrix.
-/
import proofs.«107722_j26817775796922_1_alg».proof.Proof.Gen.KernelIdeal.Frame
import proofs.«107722_j26817775796922_1_alg».proof.Proof.Spec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

section Stages
variable {F : FTy → Type} [FloatOps F]

/-- A node index below zero counts from the end of the table of 50000 nodes. -/
def wrap (r : (⟨S800000, .i32⟩ : BufTy).Contents (Elt F)) : (⟨S800000, .i32⟩ : BufTy).Contents (Elt F) :=
  select (cmpi .slt r (broadcastInDim S800000 ![] bcast_S_S800000 (constantI S_ 32 0#32)))
    (addi r (broadcastInDim S800000 ![] bcast_S_S800000 (constantI S_ 32 50000#32))) r

/-- The first end node of every edge, as a column of start indices for the gather. -/
def firstEnd (x1 : (⟨S2x800000, .i32⟩ : BufTy).Contents (Elt F)) : (⟨S800000x1, .i32⟩ : BufTy).Contents (Elt F) :=
  broadcastInDim S800000x1 ![0] bcast_S800000_S800000x1_0
    (wrap (shapeCast _ (extractStridedSlice S1x800000 ![0, 0] x1 slices_S2x800000_S1x800000_0_0) shapeCasts_S1x800000_S800000))

/-- The second end node of every edge, as a column of start indices for the gather. -/
def secondEnd (x1 : (⟨S2x800000, .i32⟩ : BufTy).Contents (Elt F)) : (⟨S800000x1, .i32⟩ : BufTy).Contents (Elt F) :=
  broadcastInDim S800000x1 ![0] bcast_S800000_S800000x1_0
    (wrap (shapeCast _ (extractStridedSlice S1x800000 ![1, 0] x1 slices_S2x800000_S1x800000_1_0) shapeCasts_S1x800000_S800000))

/-- The feature rows of the edges' first end nodes. -/
def firstRows (x0 : (⟨S50000x128, .f32⟩ : BufTy).Contents (Elt F)) (x1 : (⟨S2x800000, .i32⟩ : BufTy).Contents (Elt F)) :
    (⟨S800000x128, .f32⟩ : BufTy).Contents (Elt F) :=
  Host.gather gather_S50000x128_S800000x1_S800000x128_1_0_n_n_0_1_1128 x0 (firstEnd x1)

/-- The feature rows of the edges' second end nodes. -/
def secondRows (x0 : (⟨S50000x128, .f32⟩ : BufTy).Contents (Elt F)) (x1 : (⟨S2x800000, .i32⟩ : BufTy).Contents (Elt F)) :
    (⟨S800000x128, .f32⟩ : BufTy).Contents (Elt F) :=
  Host.gather gather_S50000x128_S800000x1_S800000x128_1_0_n_n_0_1_1128 x0 (secondEnd x1)

/-- A half of a weight matrix (its columns from `off` on), transposed. -/
def halfT (off : Nat) (h : S128x256.Slices ![0, off] S128x128) (w : (⟨S128x256, .f32⟩ : BufTy).Contents (Elt F)) :
    (⟨S128x128, .f32⟩ : BufTy).Contents (Elt F) :=
  transpose S128x128 [1, 0] (extractStridedSlice S128x128 ![0, off] w h) transposes_S128x128_S128x128_1_0

end Stages

variable (m : (ℓ : Loc nD τ sig) → Buf (Elt Ideal) ℓ)

/-- The first window's array holds the first end nodes' feature rows. -/
theorem V_first (c : Dev nD) :
    (V m c main_v11 : S800000x128.Idx → EReal)
      = firstRows (F := Ideal) (m ((c : Thread nD τ).loc main_arg0)) (m ((c : Thread nD τ).loc main_arg1)) := by
  dsimp only [V, hostOps0]
  after_results_simp
  rfl

/-- The second window's array holds the second end nodes' feature rows. -/
theorem V_second (c : Dev nD) :
    (V m c main_v19 : S800000x128.Idx → EReal)
      = secondRows (F := Ideal) (m ((c : Thread nD τ).loc main_arg0)) (m ((c : Thread nD τ).loc main_arg1)) := by
  dsimp only [V, hostOps0]
  after_results_simp
  rfl

/-- A transposed half at `(k, n)` is the weight matrix at `(n, off + k)`. -/
theorem halfT_at (off : Nat) (h : S128x256.Slices ![0, off] S128x128) (w : (⟨S128x256, .f32⟩ : BufTy).Contents (Elt Ideal))
    (k n : Fin 128) (j : Fin 256) (hj : j.val = off + k.val) :
    halfT (F := Ideal) off h w (ix2 k n) = w (ix2 n j) := by
  unfold halfT
  refine (transpose_apply [1, 0] _ transposes_S128x128_S128x128_1_0 (ix2 k n) (ix2 n k) ?_).trans ?_
  · intro b
    match b with
    | ⟨0, _⟩ => rfl
    | ⟨1, _⟩ => rfl
  · exact extractStridedSlice_apply ![0, off] w h (ix2 n k) (ix2 n j) (fun a => match a with
      | ⟨0, _⟩ => by show n.val = 0 + n.val; omega
      | ⟨1, _⟩ => by show j.val = off + k.val; exact hj)

/-- The four weight windows' arrays are the transposed halves of the two weight matrices. -/
theorem V_w0 (c : Dev nD) :
    (V m c main_v22 : S128x128.Idx → EReal) = halfT (F := Ideal) 0 slices_S128x256_S128x128_0_0 (m ((c : Thread nD τ).loc main_arg2)) := by
  dsimp only [V, hostOps0]
  after_results_simp
  rfl
theorem V_w1 (c : Dev nD) :
    (V m c main_v25 : S128x128.Idx → EReal) = halfT (F := Ideal) 128 slices_S128x256_S128x128_0_128 (m ((c : Thread nD τ).loc main_arg2)) := by
  dsimp only [V, hostOps0]
  after_results_simp
  rfl
theorem V_w2 (c : Dev nD) :
    (V m c main_v28 : S128x128.Idx → EReal) = halfT (F := Ideal) 0 slices_S128x256_S128x128_0_0 (m ((c : Thread nD τ).loc main_arg3)) := by
  dsimp only [V, hostOps0]
  after_results_simp
  rfl
theorem V_w3 (c : Dev nD) :
    (V m c main_v31 : S128x128.Idx → EReal) = halfT (F := Ideal) 128 slices_S128x256_S128x128_0_128 (m ((c : Thread nD τ).loc main_arg3)) := by
  dsimp only [V, hostOps0]
  after_results_simp
  rfl

end Cert.KernelIdeal.Entry

end
-- ==== Proof.KernelValue.lean ====
/-
  The kernel's two result arrays as the edge projection of what the region finds.

  The grid has 100 points; point `t` works on edges `8000·t … 8000·t + 7999`: its two blocks of gathered rows are
  those edges' rows, its four weight blocks are the whole transposed halves, and it writes back rows
  `8000·t … 8000·t + 7999` of each result. Entry `(p, q)` of what it writes is
  `Σ_k x0[p,k]·w0[k,q] + Σ_k x1[p,k]·w1[k,q]`, which with the blocks read off their arrays is the projection's
  entry `(8000·t + p, q)`. The 100 blocks of 8000 rows tile the 800000 rows, so each result array ends as the
  projection.
-/
import proofs.«107722_j26817775796922_1_alg».proof.Proof.Gen.KernelIdeal.Value
import proofs.«107722_j26817775796922_1_alg».proof.Proof.Payload
import proofs.«107722_j26817775796922_1_alg».proof.Proof.Entry

noncomputable section

namespace Cert.KernelIdeal.Whole

open Cert.KernelIdeal Cert.KernelIdeal.Gen Cert.KernelIdeal.Entry Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at a grid point: the row windows and the result windows at block `t` of the rows,
    the weight windows always at the one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The first row window's block at point `t`: entry `y` is the first end nodes' rows at row `8000·t + y₀`. -/
theorem rows0_at (c : Dev nD) (t : Fin cfg0.N) (y : S8000x128.Idx) (i : S800000x128.Idx)
    (h0 : (i 0).val = t.val * 8000 + (y 0).val) (h1 : (i 1).val = (y 1).val) :
    (iblk m c 0 t : Vec Ideal S8000x128 .bf16) y
      = firstRows (F := Ideal) (m ((c : Thread nD τ).loc main_arg0)) (m ((c : Thread nD τ).loc main_arg1)) i := by
  obtain ⟨e0, e1, -⟩ := block_index t
  unfold iblk
  rw [View.read_apply]
  show V m c main_v11 _ = _
  rw [V_first]
  refine congrArg _ (funext fun a => Fin.ext ?_)
  match a with
  | ⟨0, _⟩ => show win0_0.index t (0 : Fin 2) * 8000 + 1 * (y 0).val = (i 0).val; rw [e0, h0]; omega
  | ⟨1, _⟩ => show win0_0.index t (1 : Fin 2) * 128 + 1 * (y 1).val = (i 1).val; rw [e1, h1]; omega

/-- The second row window's block at point `t`: entry `y` is the second end nodes' rows at row `8000·t + y₀`. -/
theorem rows1_at (c : Dev nD) (t : Fin cfg0.N) (y : S8000x128.Idx) (i : S800000x128.Idx)
    (h0 : (i 0).val = t.val * 8000 + (y 0).val) (h1 : (i 1).val = (y 1).val) :
    (iblk m c 1 t : Vec Ideal S8000x128 .bf16) y
      = secondRows (F := Ideal) (m ((c : Thread nD τ).loc main_arg0)) (m ((c : Thread nD τ).loc main_arg1)) i := by
  obtain ⟨-, -, e0, e1, -⟩ := block_index t
  unfold iblk
  rw [View.read_apply]
  show V m c main_v19 _ = _
  rw [V_second]
  refine congrArg _ (funext fun a => Fin.ext ?_)
  match a with
  | ⟨0, _⟩ => show win0_1.index t (0 : Fin 2) * 8000 + 1 * (y 0).val = (i 0).val; rw [e0, h0]; omega
  | ⟨1, _⟩ => show win0_1.index t (1 : Fin 2) * 128 + 1 * (y 1).val = (i 1).val; rw [e1, h1]; omega

/-- A weight window's one block is its whole array. -/
theorem w0_at (c : Dev nD) (t : Fin cfg0.N) (y : S128x128.Idx) :
    (iblk m c 2 t : Vec Ideal S128x128 .bf16) y = halfT (F := Ideal) 0 slices_S128x256_S128x128_0_0 (m ((c : Thread nD τ).loc main_arg2)) y := by
  obtain ⟨-, -, -, -, e0, e1, -⟩ := block_index t
  unfold iblk
  rw [View.read_apply]
  show V m c main_v22 _ = _
  rw [V_w0]
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem w1_at (c : Dev nD) (t : Fin cfg0.N) (y : S128x128.Idx) :
    (iblk m c 3 t : Vec Ideal S128x128 .bf16) y = halfT (F := Ideal) 128 slices_S128x256_S128x128_0_128 (m ((c : Thread nD τ).loc main_arg2)) y := by
  obtain ⟨-, -, -, -, -, -, e0, e1, -⟩ := block_index t
  unfold iblk
  rw [View.read_apply]
  show V m c main_v25 _ = _
  rw [V_w1]
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem w2_at (c : Dev nD) (t : Fin cfg0.N) (y : S128x128.Idx) :
    (iblk m c 4 t : Vec Ideal S128x128 .bf16) y = halfT (F := Ideal) 0 slices_S128x256_S128x128_0_0 (m ((c : Thread nD τ).loc main_arg3)) y := by
  obtain ⟨-, -, -, -, -, -, -, -, e0, e1, -⟩ := block_index t
  unfold iblk
  rw [View.read_apply]
  show V m c main_v28 _ = _
  rw [V_w2]
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem w3_at (c : Dev nD) (t : Fin cfg0.N) (y : S128x128.Idx) :
    (iblk m c 5 t : Vec Ideal S128x128 .bf16) y = halfT (F := Ideal) 128 slices_S128x256_S128x128_0_128 (m ((c : Thread nD τ).loc main_arg3)) y := by
  obtain ⟨-, -, -, -, -, -, -, -, -, -, e0, e1, -⟩ := block_index t
  unfold iblk
  rw [View.read_apply]
  show V m c main_v31 _ = _
  rw [V_w3]
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The two sums of a stored entry, with the blocks' entries known, are the projection's entry: the per-point step
    over plain arrays. `x0`, `x1` are the row blocks at rows `base + p` of `A`, `B`; `w0`, `w1` the transposed halves of `W`. -/
theorem sums_eq (x0 x1 : Vec Ideal S8000x128 .bf16) (w0 w1 : Vec Ideal S128x128 .bf16)
    (A B : (⟨2, ![800000, 128]⟩ : Shape).Idx → EReal) (W : (⟨2, ![128, 256]⟩ : Shape).Idx → EReal)
    (p : Fin 8000) (q : Fin 128) (e : Fin 800000)
    (hx0 : ∀ k : Fin 128, x0 (ix2 p k) = A (ix2 e k)) (hx1 : ∀ k : Fin 128, x1 (ix2 p k) = B (ix2 e k))
    (hw0 : ∀ k : Fin 128, w0 (ix2 k q) = W (ix2 q (EdgeProj.lo k))) (hw1 : ∀ k : Fin 128, w1 (ix2 k q) = W (ix2 q (EdgeProj.hi k))) :
    (∑ k : Fin 128, x0 (ix2 p k) * w0 (ix2 k q)) + ∑ k : Fin 128, x1 (ix2 p k) * w1 (ix2 k q) = EdgeProj.proj A B W e q := by
  unfold EdgeProj.proj
  exact congrArg₂ (· + ·) (Finset.sum_congr rfl fun k _ => by rw [hx0 k, hw0 k]) (Finset.sum_congr rfl fun k _ => by rw [hx1 k, hw1 k])

/-- The first result as one array: the projection by the first weight matrix. -/
abbrev meanArr (c : Dev nD) : S800000x128.Idx → EReal :=
  EdgeProj.projArr (firstRows (F := Ideal) (m ((c : Thread nD τ).loc main_arg0)) (m ((c : Thread nD τ).loc main_arg1)))
    (secondRows (F := Ideal) (m ((c : Thread nD τ).loc main_arg0)) (m ((c : Thread nD τ).loc main_arg1)))
    (m ((c : Thread nD τ).loc main_arg2))

/-- The second result as one array: the projection by the second weight matrix. -/
abbrev varArr (c : Dev nD) : S800000x128.Idx → EReal :=
  EdgeProj.projArr (firstRows (F := Ideal) (m ((c : Thread nD τ).loc main_arg0)) (m ((c : Thread nD τ).loc main_arg1)))
    (secondRows (F := Ideal) (m ((c : Thread nD τ).loc main_arg0)) (m ((c : Thread nD τ).loc main_arg1)))
    (m ((c : Thread nD τ).loc main_arg3))

/-- What point `t` writes back to the first result is block `t` of the projection. -/
theorem flushed6_eq (c : Dev nD) (t : Fin cfg0.N) :
    (dats m 0 c).flushed 6 t = ((cfg0.win 6).blk t).view.read (Elt Ideal) (meanArr m c) := by
  rw [Value.flushed6]
  unfold out0_6
  rw [View.canon_unit_zero hz]
  simp only [View.ld_unit_zero (S := S8000x128) hz, View.ld_unit_zero (S := S128x128) hz]
  obtain ⟨-, -, -, -, -, -, -, -, -, -, -, -, e0, e1, -⟩ := block_index t
  funext y
  obtain ⟨p, q, rfl⟩ : ∃ (p : Fin 8000) (q : Fin 128), y = ix2 p q := ⟨y 0, y 1, eq_ix2 y⟩
  have hN : t.val < 100 := lt_of_lt_of_eq t.isLt (N_0 : cfg0.N = 100)
  let e : Fin 800000 := ⟨t.val * 8000 + p.val, by have := p.isLt; omega⟩
  show k0_pay3 (F := Ideal) (iblk m c 0 t) (iblk m c 1 t) (iblk m c 2 t) (iblk m c 3 t) (ix2 p q) = meanArr m c (((cfg0.win 6).blk t).view.emb (ix2 p q))
  have hemb : ((cfg0.win 6).blk t).view.emb (ix2 p q) = (ix2 e q : S800000x128.Idx) :=
    funext fun a => Fin.ext (by
      match a with
      | ⟨0, _⟩ => show win0_6.index t (0 : Fin 2) * 8000 + 1 * p.val = t.val * 8000 + p.val; rw [e0]; omega
      | ⟨1, _⟩ => show win0_6.index t (1 : Fin 2) * 128 + 1 * q.val = q.val; rw [e1]; omega)
  rw [hemb]
  refine (Body.pay3_at _ _ _ _ p q).trans ?_
  refine (sums_eq _ _ _ _ _ _ _ p q e ?_ ?_ ?_ ?_).trans (EdgeProj.projArr_apply _ _ _ e q).symm
  · intro k; exact rows0_at m c t (ix2 p k) (ix2 e k) rfl rfl
  · intro k; exact rows1_at m c t (ix2 p k) (ix2 e k) rfl rfl
  · intro k; exact (w0_at m c t (ix2 k q)).trans (halfT_at 0 _ _ k q (EdgeProj.lo k) (by show k.val = 0 + k.val; omega))
  · intro k; exact (w1_at m c t (ix2 k q)).trans (halfT_at 128 _ _ k q (EdgeProj.hi k) rfl)

/-- What point `t` writes back to the second result is block `t` of the projection. -/
theorem flushed7_eq (c : Dev nD) (t : Fin cfg0.N) :
    (dats m 0 c).flushed 7 t = ((cfg0.win 7).blk t).view.read (Elt Ideal) (varArr m c) := by
  rw [Value.flushed7]
  unfold out0_7
  rw [View.canon_unit_zero hz]
  simp only [View.ld_unit_zero (S := S8000x128) hz, View.ld_unit_zero (S := S128x128) hz]
  obtain ⟨-, -, -, -, -, -, -, -, -, -, -, -, -, -, e0, e1⟩ := block_index t
  funext y
  obtain ⟨p, q, rfl⟩ : ∃ (p : Fin 8000) (q : Fin 128), y = ix2 p q := ⟨y 0, y 1, eq_ix2 y⟩
  have hN : t.val < 100 := lt_of_lt_of_eq t.isLt (N_0 : cfg0.N = 100)
  let e : Fin 800000 := ⟨t.val * 8000 + p.val, by have := p.isLt; omega⟩
  show k0_pay4 (F := Ideal) (iblk m c 0 t) (iblk m c 1 t) (iblk m c 4 t) (iblk m c 5 t) (ix2 p q) = varArr m c (((cfg0.win 7).blk t).view.emb (ix2 p q))
  have hemb : ((cfg0.win 7).blk t).view.emb (ix2 p q) = (ix2 e q : S800000x128.Idx) :=
    funext fun a => Fin.ext (by
      match a with
      | ⟨0, _⟩ => show win0_7.index t (0 : Fin 2) * 8000 + 1 * p.val = t.val * 8000 + p.val; rw [e0]; omega
      | ⟨1, _⟩ => show win0_7.index t (1 : Fin 2) * 128 + 1 * q.val = q.val; rw [e1]; omega)
  rw [hemb]
  refine (Body.pay4_at _ _ _ _ p q).trans ?_
  refine (sums_eq _ _ _ _ _ _ _ p q e ?_ ?_ ?_ ?_).trans (EdgeProj.projArr_apply _ _ _ e q).symm
  · intro k; exact rows0_at m c t (ix2 p k) (ix2 e k) rfl rfl
  · intro k; exact rows1_at m c t (ix2 p k) (ix2 e k) rfl rfl
  · intro k; exact (w2_at m c t (ix2 k q)).trans (halfT_at 0 _ _ k q (EdgeProj.lo k) (by show k.val = 0 + k.val; omega))
  · intro k; exact (w3_at m c t (ix2 k q)).trans (halfT_at 128 _ _ k q (EdgeProj.hi k) rfl)

/-- A row of a result lies in point `t`'s block iff it is one of rows `8000·t … 8000·t + 7999`. -/
theorem mem_blk6 (t : Fin cfg0.N) (i : S800000x128.Idx) :
    i ∈ ((cfg0.win 6).blk t).view.set ↔ ∀ a : Fin 2, win0_6.index t a * S8000x128.size a ≤ (i a).val ∧ (i a).val < win0_6.index t a * S8000x128.size a + S8000x128.size a := by
  show i ∈ ((View.whole main_v32_0).slice (win0_6.rect t)).set ↔ _
  rw [View.set_slice_whole, Rect.mem_set_unit]
  exact Iff.rfl
theorem mem_blk7 (t : Fin cfg0.N) (i : S800000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v32_1).slice (win0_7.rect t)).set ↔ _
  rw [View.set_slice_whole, Rect.mem_set_unit]
  exact Iff.rfl

/-- Every row is in the block of the point `row / 8000`. -/
theorem cover6 (i : S800000x128.Idx) : ∃ t : Fin cfg0.N, (cfg0.win 6).flush t = true ∧ i ∈ ((cfg0.win 6).blk t).view.set := by
  have hi0 : (i 0).val < 800000 := (i 0).isLt
  have hi1 : (i 1).val < 128 := (i 1).isLt
  have hN : cfg0.N = 100 := N_0
  have ht : (i 0).val / 8000 < cfg0.N := by rw [hN]; omega
  obtain ⟨-, -, -, -, -, -, -, -, -, -, -, -, e0, e1, -⟩ := block_index ⟨(i 0).val / 8000, ht⟩
  refine ⟨⟨(i 0).val / 8000, ht⟩, flush0_6 _, ?_⟩
  rw [mem_blk6]
  intro a
  match a with
  | ⟨0, _⟩ =>
    show win0_6.index ⟨(i 0).val / 8000, ht⟩ (0 : Fin 2) * 8000 ≤ (i 0).val ∧ (i 0).val < win0_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_6.index ⟨(i 0).val / 8000, ht⟩ (1 : Fin 2) * 128 ≤ (i 1).val ∧ (i 1).val < win0_6.index ⟨(i 0).val / 8000, ht⟩ (1 : Fin 2) * 128 + 128
    rw [e1]; omega
theorem cover7 (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 100 := N_0
  have ht : (i 0).val / 8000 < cfg0.N := by rw [hN]; omega
  obtain ⟨-, -, -, -, -, -, -, -, -, -, -, -, -, -, e0, e1⟩ := block_index ⟨(i 0).val / 8000, ht⟩
  refine ⟨⟨(i 0).val / 8000, ht⟩, flush0_7 _, ?_⟩
  rw [mem_blk7]
  intro a
  match a with
  | ⟨0, _⟩ =>
    show win0_7.index ⟨(i 0).val / 8000, ht⟩ (0 : Fin 2) * 8000 ≤ (i 0).val ∧ (i 0).val < win0_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_7.index ⟨(i 0).val / 8000, ht⟩ (1 : Fin 2) * 128 ≤ (i 1).val ∧ (i 1).val < win0_7.index ⟨(i 0).val / 8000, ht⟩ (1 : Fin 2) * 128 + 128
    rw [e1]; omega

/-- After the run the first result array is the projection by the first weight matrix. -/
theorem final6 (c : Dev nD) : (dats m 0 c).arrAt 6 cfg0.N = meanArr m c :=
  (dats m 0 c).arrAt_eq_of_cover 6 (meanArr m c) (fun t _ => flushed6_eq m c t) cover6

/-- After the run the second result array is the projection by the second weight matrix. -/
theorem final7 (c : Dev nD) : (dats m 0 c).arrAt 7 cfg0.N = varArr m c :=
  (dats m 0 c).arrAt_eq_of_cover 7 (varArr m c) (fun t _ => flushed7_eq m c t) cover7

/-- The kernel's run, read: both results at their projections, the arguments unchanged. -/
theorem run : θ_run defs (onTc (τ := τ) (main (F := Ideal))) ⟨m, fun _ => 0, ρ⟩ fun r => ∀ c : Dev nD,
      r.2.mem ((c : Thread nD τ).loc main_v32_0) = meanArr m c
      ∧ r.2.mem ((c : Thread nD τ).loc main_v32_1) = varArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final6 m c), (h c).2.1.trans (final7 m c), (h c).2.2⟩)
    (Value.run_blocks m ρ)

end Cert.KernelIdeal.Whole

end
-- ==== Proof.RefSide.lean ====
/-
  The reference, read at an index: each of its two results is the edge projection (`Cert.EdgeProj.projArr`) of the two
  gathered arrays and one weight matrix. The reference slices the weight matrix into its two halves of 128 columns and
  contracts each gathered array with one half over the channel axis (both operands' axis 1), then adds: at entry
  `(e, n)` that is `Σ_k a[e,k]·w[n,k] + Σ_k b[e,k]·w[n,128+k]`.
-/
import proofs.«107722_j26817775796922_1_alg».proof.Proof.Gen.ReferenceIdeal.Read
import proofs.«107722_j26817775796922_1_alg».proof.Proof.Spec

noncomputable section

namespace Cert.ReferenceIdeal.RefValue

open Cert.ReferenceIdeal Cert.ReferenceIdeal.Read Idealize.ShloMosaic Idealize.ShloMosaic.ValueIdx

/-- The left operand of either contraction is read at `(e, k)`. -/
theorem lidx19 (i : S800000x128.Idx) (k : Fin 128) : lidx_main_v19 i k = ix2 (i 0) k :=
  funext fun a => Fin.ext (by match a with | ⟨0, _⟩ => rfl | ⟨1, _⟩ => rfl)
theorem lidx21 (i : S800000x128.Idx) (k : Fin 128) : lidx_main_v21 i k = ix2 (i 0) k :=
  funext fun a => Fin.ext (by match a with | ⟨0, _⟩ => rfl | ⟨1, _⟩ => rfl)
theorem lidx24 (i : S800000x128.Idx) (k : Fin 128) : lidx_main_v24 i k = ix2 (i 0) k :=
  funext fun a => Fin.ext (by match a with | ⟨0, _⟩ => rfl | ⟨1, _⟩ => rfl)
theorem lidx26 (i : S800000x128.Idx) (k : Fin 128) : lidx_main_v26 i k = ix2 (i 0) k :=
  funext fun a => Fin.ext (by match a with | ⟨0, _⟩ => rfl | ⟨1, _⟩ => rfl)

/-- The first half's slice, read where the contraction reads it, is the weight matrix at `(n, k)`. -/
theorem ridx19 (i : S800000x128.Idx) (k : Fin 128) : idx_main_v18 (ridx_main_v19 i k) = ix2 (i 1) (EdgeProj.lo k) :=
  funext fun a => Fin.ext (by match a with | ⟨0, _⟩ => rfl | ⟨1, _⟩ => rfl)
/-- The second half's slice, read where the contraction reads it, is the weight matrix at `(n, 128 + k)`. -/
theorem ridx21 (i : S800000x128.Idx) (k : Fin 128) : idx_main_v20 (ridx_main_v21 i k) = ix2 (i 1) (EdgeProj.hi k) :=
  funext fun a => Fin.ext (by match a with | ⟨0, _⟩ => rfl | ⟨1, _⟩ => rfl)
theorem ridx24 (i : S800000x128.Idx) (k : Fin 128) : idx_main_v23 (ridx_main_v24 i k) = ix2 (i 1) (EdgeProj.lo k) :=
  funext fun a => Fin.ext (by match a with | ⟨0, _⟩ => rfl | ⟨1, _⟩ => rfl)
theorem ridx26 (i : S800000x128.Idx) (k : Fin 128) : idx_main_v25 (ridx_main_v26 i k) = ix2 (i 1) (EdgeProj.hi k) :=
  funext fun a => Fin.ext (by match a with | ⟨0, _⟩ => rfl | ⟨1, _⟩ => rfl)

/-- The first result is the projection of the two gathered arrays by the first weight matrix. -/
theorem mean_eq (x0 : (⟨S50000x128, .f32⟩ : BufTy).Contents (Elt Ideal)) (x1 : (⟨S2x800000, .i32⟩ : BufTy).Contents (Elt Ideal))
    (x2 : (⟨S128x256, .f32⟩ : BufTy).Contents (Elt Ideal)) :
    val_main_v22 (F := Ideal) x0 x1 x2
      = EdgeProj.projArr (val_main_v10 (F := Ideal) x0 x1) (val_main_v17 (F := Ideal) x0 x1) x2 := by
  funext i
  rw [val_main_v22_apply, val_main_v19_apply, val_main_v21_apply]
  simp only [val_main_v18_apply, val_main_v20_apply, lidx19, lidx21, ridx19, ridx21]
  rfl

/-- The second result is the projection of the same two gathered arrays by the second weight matrix. -/
theorem var_eq (x0 : (⟨S50000x128, .f32⟩ : BufTy).Contents (Elt Ideal)) (x1 : (⟨S2x800000, .i32⟩ : BufTy).Contents (Elt Ideal))
    (x3 : (⟨S128x256, .f32⟩ : BufTy).Contents (Elt Ideal)) :
    val_main_v27 (F := Ideal) x0 x1 x3
      = EdgeProj.projArr (val_main_v10 (F := Ideal) x0 x1) (val_main_v17 (F := Ideal) x0 x1) x3 := by
  funext i
  rw [val_main_v27_apply, val_main_v24_apply, val_main_v26_apply]
  simp only [val_main_v23_apply, val_main_v25_apply, lidx24, lidx26, ridx24, ridx26]
  rfl

end Cert.ReferenceIdeal.RefValue

end
-- ==== Proof.lean ====
/-
  The certificate of the edge projection kernel against its reference.

  Both programs take node features `x` (50000 × 128), an edge index array (2 × 800000: the two end nodes of every edge)
  and two weight matrices (128 × 256). Both gather, for every edge, the feature rows of its two end nodes — a negative
  node index counted from the end of the table — by the same gather. The reference contracts the first gathered array
  with the first 128 columns of a weight matrix and the second with the last 128 columns, over the channel axis, and
  adds the two. The kernel rounds the gathered rows and the transposed halves of the weights to a narrower float
  format, walks the edges in 100 blocks of 8000, and for each block adds two matrix products of a block of rows with a
  transposed half. Over the extended reals the rounding is the identity and a matrix product into a zero accumulator
  is the plain sum over the 128 channels, so both results are, entry by entry,

      out[e,n] = Σ_k a[e,k]·w[n,k] + Σ_k b[e,k]·w[n,128+k]

  with `a`, `b` the two gathered arrays (`Cert.EdgeProj.projArr`). The two sides are the same sums over the same index
  set, so the argument never needs the inputs to be finite.

  The modules: `Spec` states the projection; `RefSide` reads the reference's results as it; `Payload` reads the kernel
  body's stored values at an entry; `Entry` says what the region finds in its windows' arrays; `KernelValue` puts the
  blocks together into the whole result arrays. Below: the two programs gather the same rows, and the claims.
-/
import proofs.«107722_j26817775796922_1_alg».proof.Defs
import proofs.«107722_j26817775796922_1_alg».proof.Proof.Gen.Kernel
import proofs.«107722_j26817775796922_1_alg».proof.Proof.Gen.Kernel.Frame
import proofs.«107722_j26817775796922_1_alg».proof.Proof.Gen.KernelIdeal
import proofs.«107722_j26817775796922_1_alg».proof.Proof.Gen.KernelIdeal.Frame
import proofs.«107722_j26817775796922_1_alg».proof.Proof.Gen.KernelIdeal.Value
import proofs.«107722_j26817775796922_1_alg».proof.Proof.Gen.ReferenceIdeal
import proofs.«107722_j26817775796922_1_alg».proof.Proof.Gen.ReferenceIdeal.Run
import proofs.«107722_j26817775796922_1_alg».proof.Proof.Gen.ReferenceIdeal.Read
import proofs.«107722_j26817775796922_1_alg».proof.Proof.Gen.Pre_finite_inputs
import proofs.«107722_j26817775796922_1_alg».proof.Proof.KernelValue
import proofs.«107722_j26817775796922_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program and the reference gather the same rows for the edges' first end nodes: the same operations
    on the same arguments. -/
theorem rows_first (x0 : (⟨Cert.KernelIdeal.S50000x128, .f32⟩ : BufTy).Contents (Elt Ideal))
    (x1 : (⟨Cert.KernelIdeal.S2x800000, .i32⟩ : BufTy).Contents (Elt Ideal)) :
    Cert.ReferenceIdeal.Read.val_main_v10 (F := Ideal) x0 x1 = Cert.KernelIdeal.Entry.firstRows (F := Ideal) x0 x1 := rfl

/-- And for the second end nodes. -/
theorem rows_second (x0 : (⟨Cert.KernelIdeal.S50000x128, .f32⟩ : BufTy).Contents (Elt Ideal))
    (x1 : (⟨Cert.KernelIdeal.S2x800000, .i32⟩ : BufTy).Contents (Elt Ideal)) :
    Cert.ReferenceIdeal.Read.val_main_v17 (F := Ideal) x0 x1 = Cert.KernelIdeal.Entry.secondRows (F := Ideal) x0 x1 := rfl

theorem frame_k : Cert.frame_Kernel := fun m ρ _ => Cert.Kernel.Gen.frame m ρ
theorem frame_ki : Cert.frame_KernelIdeal := fun m ρ _ => Cert.KernelIdeal.Gen.frame m ρ
/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with each result at the projection of the same gathered rows by the same weight matrix. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v22_eq _ _ _).trans ?_
    refine (Cert.ReferenceIdeal.RefValue.mean_eq _ _ _).trans ?_
    rw [(hagree c).1, (hagree c).2.1, (hagree c).2.2.1, rows_first, rows_second]
  · refine (Cert.ReferenceIdeal.Read.val_main_v27_eq _ _ _).trans ?_
    refine (Cert.ReferenceIdeal.RefValue.var_eq _ _ _).trans ?_
    rw [(hagree c).1, (hagree c).2.1, (hagree c).2.2.2, rows_first, rows_second]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
